-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x2048 : Shape := ⟨3, ![16, 512, 2048]⟩
abbrev S2048x2048 : Shape := ⟨2, ![2048, 2048]⟩
abbrev S64x2048 : Shape := ⟨2, ![64, 2048]⟩
abbrev S64 : Shape := ⟨1, ![64]⟩
abbrev S_ : Shape := ⟨0, ![]⟩

class Facts : Prop where
  bcast_S_S16x512x2048 : S_.BroadcastsInDim S16x512x2048 (![] : Fin 0 → Fin S16x512x2048.rank)
  reducesTo_S16x512x2048_S_d0_1_2 : S16x512x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x512x2048 .f32) (main_arg1 : FVec F S2048x2048 .f32) (main_arg2 : FVec F S64x2048 .f32) (main_arg3 : FVec F S64 .f32) : IVec S_ 1 :=
  let main_v0 : FVec F S16x512x2048 .f32 := Host.absf main_arg0
  let main_cst : FVec F S_ .f32 := constant S_ .f32 0x7F800000#32
  let main_v1 : FVec F S16x512x2048 .f32 := broadcastInDim S16x512x2048 ![] bcast_S_S16x512x2048 main_cst
  let main_v2 : IVec S16x512x2048 1 := cmpf .olt main_v0 main_v1
  let main_c : IVec S_ 1 := constantI S_ 1 1#1
  let main_v3 : IVec S_ 1 := (fun x v => Host.reduce IntOp.andi x v reducesTo_S16x512x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x512x2048 : Shape := ⟨3, ![16, 512, 2048]⟩
abbrev S2048x2048 : Shape := ⟨2, ![2048, 2048]⟩
abbrev S64x2048 : Shape := ⟨2, ![64, 2048]⟩
abbrev S64 : Shape := ⟨1, ![64]⟩
abbrev S_ : Shape := ⟨0, ![]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S8192x2048 : Shape := ⟨2, ![8192, 2048]⟩
abbrev S512x2048 : Shape := ⟨2, ![512, 2048]⟩

abbrev nBuf : Space → Nat
  | .hbm => 19
  | .vmem => 11
  | .smem => 0
  | _ => 0

abbrev bufTy : (tb : Table) → Fin (tcTables nBuf tb) → BufTy
  | .hbm, ⟨0, _⟩ => ⟨S16x512x2048, .f32⟩
  | .hbm, ⟨1, _⟩ => ⟨S2048x2048, .f32⟩
  | .hbm, ⟨2, _⟩ => ⟨S64x2048, .f32⟩
  | .hbm, ⟨3, _⟩ => ⟨S64, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S2048x2048, .bf16⟩
  | .hbm, ⟨16, _⟩ => ⟨S8192x2048, .f32⟩
  | .hbm, ⟨17, _⟩ => ⟨S8192x2048, .f32⟩
  | .hbm, ⟨18, _⟩ => ⟨S16x512x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S1x1, .f32⟩
  | .local _ .vmem, ⟨9, _⟩ => ⟨S512x2048, .f32⟩
  | .local _ .vmem, ⟨10, _⟩ => ⟨S512x2048, .f32⟩
  | _, _ => ⟨S16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S64x2048_S2048_d0 : S64x2048.ReducesTo [0] S2048
  h_S_ : 0 < S_.numel
  bcast_S_S2048 : S_.BroadcastsInDim S2048 (![] : Fin 0 → Fin S2048.rank)
  shapeCasts_S2048_S1x2048 : S2048.ShapeCasts S1x2048
  reducesTo_S64_S_d0 : S64.ReducesTo [0] S_
  shapeCasts_S_S1x1 : S_.ShapeCasts S1x1
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S16x512x2048_S8192x2048 : S16x512x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x2048_S16x512x2048 : S8192x2048.ShapeCasts S16x512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x512x2048 : Shape := ⟨3, ![16, 512, 2048]⟩
abbrev S2048x2048 : Shape := ⟨2, ![2048, 2048]⟩
abbrev S64x2048 : Shape := ⟨2, ![64, 2048]⟩
abbrev S64 : Shape := ⟨1, ![64]⟩
abbrev S_ : Shape := ⟨0, ![]⟩
abbrev S2048 : Shape := ⟨1, ![2048]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x512x2048, .f32⟩
  | .hbm, ⟨1, _⟩ => ⟨S2048x2048, .f32⟩
  | .hbm, ⟨2, _⟩ => ⟨S64x2048, .f32⟩
  | .hbm, ⟨3, _⟩ => ⟨S64, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S16x512x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x512x2048, .f32⟩
  | .hbm, ⟨18, _⟩ => ⟨S16x512x2048, .f32⟩
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S64x2048_S2048_d0 : S64x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  reducesTo_S64_S_d0 : S64.ReducesTo [0] S_
  bcast_S_S16x512x2048 : S_.BroadcastsInDim S16x512x2048 (![] : Fin 0 → Fin S16x512x2048.rank)
  dot_S16x512x2048_S2048x2048_S16x512x2048_2_1_01_0_n_n_wf : DotDims.WF S16x512x2048 S2048x2048 S16x512x2048 [2] [1] [0, 1] [0] [] []

variable [Facts₀]

def dot_S16x512x2048_S2048x2048_S16x512x2048_2_1_01_0_n_n : DotDims S16x512x2048 S2048x2048 S16x512x2048 where
  lhsContracting := [2]
  rhsContracting := [1]
  lhsNonContracting := [0, 1]
  rhsNonContracting := [0]
  lhsBatch := []
  rhsBatch := []
  wf := dot_S16x512x2048_S2048x2048_S16x512x2048_2_1_01_0_n_n_wf

class Facts : Prop extends Facts₀ where

variable [Facts]
-- ==== Proof.NamedRun.lean ====
/-
  The kernel program's run with its result named.

  The program is five segments: a stretch of host operations, the region that scales the adjacency matrix, one host
  reshape, the region that multiplies, and one host reshape. The generated frame composes the segments and reads the four
  argument arrays off the final state. The same composition, read also at the result's buffer, says that every weakly
  fair execution terminates without a fault with the result holding the contents of the last boundary of the fold through the
  segments (`W5`) and the arguments unchanged.
-/
import proofs.«103430_j13975823581349_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result's buffer ends at the last boundary's
    contents and the four arguments as launched. -/
theorem run : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Named

end
-- ==== Proof.ScaledAdjacency.lean ====
/-
  The first region: the adjacency matrix scaled column by column.

  Every grid point `t` of the first region takes rows `256·t … 256·t + 255` of the adjacency matrix `A` (all 2048 columns)
  and the one row `w` of unit-averaged weights, and writes back `A[j, k] · w[0, k]` on those rows; the change of float
  format before the store is the identity on the extended reals. The eight row blocks tile the 2048 rows, so after the
  region the output array holds `A[j, k] · w[0, k]` at every (j, k).
-/
import proofs.«103430_j13975823581349_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.ScaledAdjacency

open Idealize.ShloMosaic Idealize.ShloMosaic.TcCoe Idealize.SL.Sem Idealize.ShloMosaic.ValueIdx
open Idealize.ShloMosaic.Pipeline (Dat)
open Cert.KernelIdeal Cert.KernelIdeal.Gen

/-- The index of the weights' one row under column `k` of the matrix index (j, k): (0, k). -/
abbrev underColumn (i : S2048x2048.Idx) : S1x2048.Idx := fun a => match a with
  | ⟨0, _⟩ => ⟨0, Nat.one_pos⟩
  | ⟨1, _⟩ => ⟨(i 1).val, (i 1).isLt⟩

/-- The matrix `A[j, k] · w[0, k]`. -/
def scaled (A : FVec Ideal S2048x2048 .f32) (w : FVec Ideal S1x2048 .f32) : FVec Ideal S2048x2048 .bf16 :=
  fun i => A i * w (underColumn i)

theorem zero_offsets : (![0, 0] : Fin 2 → Nat) = fun _ => 0 := funext fun a => by fin_cases a <;> rfl

/-- What the body stores, at row `p` and column `q` of its block: the loaded entry times the weight under column `q`. -/
theorem stored_apply (x0 : Vec Ideal S256x2048 .f32) (x1 : Vec Ideal S1x2048 .f32) (p : Fin 256) (q : Fin 2048) :
    k0_pay1 (F := Ideal) x0 x1 (ix2 p q) = x0 (ix2 p q) * x1 (ix2 (0 : Fin 1) q) := by
  unfold k0_pay1
  show x0 (ix2 p q) * broadcastTo S256x2048 (shapeCast S1x2048 x1 shapeCasts_S1x2048_S1x2048) broadcasts_S1x2048_S256x2048 (ix2 p q) = _
  rw [broadcastTo_1b_ab_apply, shapeCast_self]

/-- The printed index maps over the grid: the matrix blocks are row block `t`, column block 0; the weights' block is (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the scaled matrix of the arrays as the region finds them. -/
theorem flushed_eq (c : Dev nD) (t : Fin cfg0.N) :
    (dat0 V c).flushed 2 t = ((cfg0.win 2).blk t).view.read (Elt Ideal) (scaled (V c main_arg1) (V c main_v3)) := by
  show (cfg0.win 2).cut (grid0.coords t) ((dat0 V c).after 2 t) = _
  rw [after0_2]
  unfold out0_2
  rw [View.canon_unit_zero zero_offsets]
  simp only [View.ld_unit_zero (S := S256x2048) zero_offsets, View.ld_unit_zero (S := S1x2048) zero_offsets]
  obtain ⟨e0, e1, e2, e3, e4, e5⟩ := index_maps t
  funext y
  obtain ⟨p, q, rfl⟩ : ∃ (p : Fin 256) (q : Fin 2048), y = ix2 p q := ⟨y 0, y 1, eq_ix2 y⟩
  refine (stored_apply _ _ p q).trans ?_
  let A : FVec Ideal S2048x2048 .f32 := V c main_arg1
  let w : FVec Ideal S1x2048 .f32 := V c main_v3
  show A (((cfg0.win 0).blk t).view.emb (ix2 p q)) * w (((cfg0.win 1).blk t).view.emb (ix2 (0 : Fin 1) q))
    = A (((cfg0.win 2).blk t).view.emb (ix2 p q)) * w (underColumn (((cfg0.win 2).blk t).view.emb (ix2 p q)))
  have h0 : ((cfg0.win 0).blk t).view.emb (ix2 p q) = ((cfg0.win 2).blk t).view.emb (ix2 p q) := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 2048 + 1 * q.val = win0_2.index t (1 : Fin 2) * 2048 + 1 * q.val; omega
  have h1 : ((cfg0.win 1).blk t).view.emb (ix2 (0 : Fin 1) q) = underColumn (((cfg0.win 2).blk t).view.emb (ix2 p q)) := by
    funext a; apply Fin.ext
    match a with
    | ⟨0, _⟩ => show win0_1.index t (0 : Fin 2) * 1 + 1 * 0 = 0; omega
    | ⟨1, _⟩ => show win0_1.index t (1 : Fin 2) * 2048 + 1 * q.val = win0_2.index t (1 : Fin 2) * 2048 + 1 * q.val; omega
  rw [h0, h1]

/-- An index of the matrix is in point `t`'s block iff each coordinate is in the block's range on its axis. -/
theorem mem_block (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v7).slice (win0_2.rect t)).set ↔ _
  rw [View.set_slice_whole, Rect.mem_set_unit]
  exact Iff.rfl

/-- Every row is in some point's block: row `j` in the block of point `j / 256`. -/
theorem covered (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 8 := N_0
  let t : Fin cfg0.N := ⟨(i 0).val / 256, by rw [hN]; omega⟩
  obtain ⟨e0, e1, e2, e3, e4, e5⟩ := index_maps t
  have ht : t.val = (i 0).val / 256 := rfl
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- After the region the output array is the scaled matrix of the arrays the region found. -/
theorem array_eq (c : Dev nD) : (dat0 V c).arrAt 2 cfg0.N = scaled (V c main_arg1) (V c main_v3) :=
  (dat0 V c).arrAt_eq_of_cover 2 (scaled (V c main_arg1) (V c main_v3)) (fun t _ => flushed_eq V c t) covered

end Cert.KernelIdeal.ScaledAdjacency

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.RowProducts.lean ====
/-
  The second region: rows of the flattened input against the scaled matrix, plus the averaged bias.

  Every grid point `t` of the second region takes rows `512·t … 512·t + 511` of the flattened input `X` (8192 × 2048), the
  whole scaled matrix `E` (2048 × 2048) and the 1 × 1 bias `β`, and writes back on those rows
  `(Σ_k X[r, k] · E[j, k]) + β[0, 0]`: the matrix unit contracts the last axis of both operands, starts from the zero splat,
  and the change of float format in front of it is the identity on the extended reals. The sixteen row blocks tile the 8192
  rows, so after the region the output array holds that sum at every (r, j).
-/
import proofs.«103430_j13975823581349_1_alg».proof.Proof.Gen.KernelIdeal.Frame
import proofs.«103430_j13975823581349_1_alg».proof.Proof.LibDotLastAxes
import Idealize.ShloMosaic.Lib.Pipeline.Value
import Idealize.ShloMosaic.Lib.ValueIdx

set_option maxRecDepth 16384

noncomputable section

open scoped BigOperators

namespace Cert.KernelIdeal.RowProducts

open Idealize.ShloMosaic Idealize.ShloMosaic.TcCoe Idealize.SL.Sem Idealize.ShloMosaic.ValueIdx
open Idealize.ShloMosaic.Pipeline (Dat)
open Cert.KernelIdeal Cert.KernelIdeal.Gen

/-- Entry `k` of the input row that result entry (r, j) is computed from: (r, k). -/
abbrev inRow (i : S8192x2048.Idx) (k : Fin 2048) : S8192x2048.Idx := fun a => match a with
  | ⟨0, _⟩ => ⟨(i 0).val, (i 0).isLt⟩
  | ⟨1, _⟩ => ⟨k.val, k.isLt⟩

/-- Entry `k` of the matrix row that result entry (r, j) is computed from: (j, k). -/
abbrev inMatrixRow (i : S8192x2048.Idx) (k : Fin 2048) : S2048x2048.Idx := fun a => match a with
  | ⟨0, _⟩ => ⟨(i 1).val, (i 1).isLt⟩
  | ⟨1, _⟩ => ⟨k.val, k.isLt⟩

/-- `(Σ_k X[r, k] · E[j, k]) + β[0, 0]` at (r, j). -/
def products (X : FVec Ideal S8192x2048 .f32) (E : FVec Ideal S2048x2048 .bf16) (β : FVec Ideal S1x1 .f32) : FVec Ideal S8192x2048 .f32 :=
  fun i => (∑ k : Fin 2048, X (inRow i k) * E (inMatrixRow i k)) + β (ix2 (0 : Fin 1) (0 : Fin 1))

theorem zero_offsets : (![0, 0] : Fin 2 → Nat) = fun _ => 0 := funext fun a => by fin_cases a <;> rfl

/-! The matrix unit's dimension numbers: the left operand's row is the result's row, the right operand's row the result's
    column, and the second coordinate of each is the contraction's. -/

theorem left_row (j : S512x2048.Idx) (q : dot_S512x2048_S2048x2048_S512x2048_1_1_0_0_n_n.contr.Idx) : (dot_S512x2048_S2048x2048_S512x2048_1_1_0_0_n_n.lhsIdx j q 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem left_contracted (j : S512x2048.Idx) (q : dot_S512x2048_S2048x2048_S512x2048_1_1_0_0_n_n.contr.Idx) : (dot_S512x2048_S2048x2048_S512x2048_1_1_0_0_n_n.lhsIdx j q 1).val = (q ⟨0, by decide⟩).val :=
  dot_S512x2048_S2048x2048_S512x2048_1_1_0_0_n_n.lhsIdx_val_of_single rfl j q
theorem right_row (j : S512x2048.Idx) (q : dot_S512x2048_S2048x2048_S512x2048_1_1_0_0_n_n.contr.Idx) : (dot_S512x2048_S2048x2048_S512x2048_1_1_0_0_n_n.rhsIdx j q 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem right_contracted (j : S512x2048.Idx) (q : dot_S512x2048_S2048x2048_S512x2048_1_1_0_0_n_n.contr.Idx) : (dot_S512x2048_S2048x2048_S512x2048_1_1_0_0_n_n.rhsIdx j q 1).val = (q ⟨0, by decide⟩).val :=
  dot_S512x2048_S2048x2048_S512x2048_1_1_0_0_n_n.rhsIdx_val_of_single rfl j q

/-- What the body stores, at row `p` and column `f` of its block: the row of the loaded input block against row `f` of the
    loaded matrix, plus the loaded bias. -/
theorem stored_apply (x0 : Vec Ideal S512x2048 .f32) (x1 : Vec Ideal S2048x2048 .bf16) (x2 : Vec Ideal S1x1 .f32) (p : Fin 512) (f : Fin 2048) :
    k1_pay1 (F := Ideal) x0 x1 x2 (ix2 p f) = (∑ k : Fin 2048, x0 (ix2 p k) * x1 (ix2 f k)) + x2 (ix2 (0 : Fin 1) (0 : Fin 1)) := by
  unfold k1_pay1
  show FloatOps.matmul dot_S512x2048_S2048x2048_S512x2048_1_1_0_0_n_n none (truncf .bf16 (shapeCast S512x2048 x0 shapeCasts_S512x2048_S512x2048) bitsLt_bf16_f32)
        (shapeCast S2048x2048 x1 shapeCasts_S2048x2048_S2048x2048) (constant (F := Ideal) S512x2048 .f32 0x00000000#32) (ix2 p f)
      + extractAt ![0, 0] x2 inpos_S1x1_p0_0 = _
  rw [shapeCast_self, shapeCast_self]
  refine congrArg₂ (· + ·) ?_ ?_
  · exact DotLastAxes.matmul_zero_apply dot_S512x2048_S2048x2048_S512x2048_1_1_0_0_n_n rfl rfl left_row left_contracted right_row right_contracted none _ _ p f
  · exact congrArg x2 (funext fun a => Fin.ext (by match a with | ⟨0, _⟩ => rfl | ⟨1, _⟩ => rfl))

/-- The printed index maps over the grid: the input's and the output's blocks are row block `t`, column block 0; the matrix's
    and the bias's blocks are (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the products of the arrays as the region finds them. -/
theorem flushed_eq (c : Dev nD) (t : Fin cfg1.N) :
    (dat1 V c).flushed 3 t = ((cfg1.win 3).blk t).view.read (Elt Ideal) (products (V c main_v8) (V c main_v7) (V c main_v6)) := by
  show (cfg1.win 3).cut (grid1.coords t) ((dat1 V c).after 3 t) = _
  rw [after1_3]
  unfold out1_3
  rw [View.canon_unit_zero zero_offsets]
  simp only [View.ld_unit_zero (S := S512x2048) zero_offsets, View.ld_unit_zero (S := S2048x2048) zero_offsets,
    View.ld_unit_zero (S := S1x1) zero_offsets]
  obtain ⟨e0, e1, e2, e3, e4, e5, e6, e7⟩ := index_maps t
  funext y
  obtain ⟨p, f, rfl⟩ : ∃ (p : Fin 512) (f : Fin 2048), y = ix2 p f := ⟨y 0, y 1, eq_ix2 y⟩
  refine (stored_apply _ _ _ p f).trans ?_
  let X : FVec Ideal S8192x2048 .f32 := V c main_v8
  let E : FVec Ideal S2048x2048 .bf16 := V c main_v7
  let β : FVec Ideal S1x1 .f32 := V c main_v6
  show (∑ k : Fin 2048, X (((cfg1.win 0).blk t).view.emb (ix2 p k)) * E (((cfg1.win 1).blk t).view.emb (ix2 f k)))
        + β (((cfg1.win 2).blk t).view.emb (ix2 (0 : Fin 1) (0 : Fin 1)))
    = (∑ k : Fin 2048, X (inRow (((cfg1.win 3).blk t).view.emb (ix2 p f)) k) * E (inMatrixRow (((cfg1.win 3).blk t).view.emb (ix2 p f)) k))
        + β (ix2 (0 : Fin 1) (0 : Fin 1))
  have h0 : ∀ k : Fin 2048, ((cfg1.win 0).blk t).view.emb (ix2 p k) = inRow (((cfg1.win 3).blk t).view.emb (ix2 p f)) k := fun k => by
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * k.val = k.val; omega
  have h1 : ∀ k : Fin 2048, ((cfg1.win 1).blk t).view.emb (ix2 f k) = inMatrixRow (((cfg1.win 3).blk t).view.emb (ix2 p f)) k := fun k => by
    funext a; apply Fin.ext
    match a with
    | ⟨0, _⟩ => show win1_1.index t (0 : Fin 2) * 2048 + 1 * f.val = win1_3.index t (1 : Fin 2) * 2048 + 1 * f.val; omega
    | ⟨1, _⟩ => show win1_1.index t (1 : Fin 2) * 2048 + 1 * k.val = k.val; omega
  have h2 : ((cfg1.win 2).blk t).view.emb (ix2 (0 : Fin 1) (0 : Fin 1)) = ix2 (0 : Fin 1) (0 : Fin 1) := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  rw [h2]
  refine congrArg (· + β (ix2 (0 : Fin 1) (0 : Fin 1))) (Finset.sum_congr rfl fun k _ => ?_)
  rw [h0 k, h1 k]

/-- An index of the output is in point `t`'s block iff each coordinate is in the block's range on its axis. -/
theorem mem_block (t : Fin cfg1.N) (i : S8192x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v9).slice (win1_3.rect t)).set ↔ _
  rw [View.set_slice_whole, Rect.mem_set_unit]
  exact Iff.rfl

/-- Every row is in some point's block: row `r` in the block of point `r / 512`. -/
theorem covered (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 16 := N_1
  let t : Fin cfg1.N := ⟨(i 0).val / 512, by rw [hN]; omega⟩
  obtain ⟨e0, e1, e2, e3, e4, e5, e6, e7⟩ := index_maps t
  have ht : t.val = (i 0).val / 512 := rfl
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- After the region the output array is the products of the arrays the region found. -/
theorem array_eq (c : Dev nD) : (dat1 V c).arrAt 3 cfg1.N = products (V c main_v8) (V c main_v7) (V c main_v6) :=
  (dat1 V c).arrAt_eq_of_cover 3 (products (V c main_v8) (V c main_v7) (V c main_v6)) (fun t _ => flushed_eq V c t) covered

end Cert.KernelIdeal.RowProducts

end
-- ==== Proof.HostStretches.lean ====
/-
  The host operations between the regions, read at the buffers the regions and the result depend on.

  Before the first region the host averages the weight rows over the 64 units (a sum over the unit axis divided by 64) and
  lays the 2048 averages out as one row; it averages the 64 biases and lays the average out as a 1 × 1 array. Between the
  regions it flattens the input's two leading axes (16 × 512 rows of 2048). After the second region it splits the rows back.
  Nothing else is written: the adjacency matrix reaches the first region, and the scaled matrix and the 1 × 1 bias reach the
  second, as they were.
-/
import proofs.«103430_j13975823581349_1_alg».proof.Proof.Gen.KernelIdeal.Frame
import Idealize.ShloMosaic.Lib.StableHlo.Run
import Idealize.ShloMosaic.PureOps.Ideal

set_option maxRecDepth 16384

noncomputable section

namespace Cert.KernelIdeal.HostStretches

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The weight rows averaged over the units: the sum over the unit axis, divided by 64. -/
def unitMean (W : FVec Ideal S64x2048 .f32) : FVec Ideal S2048 .f32 :=
  Host.divf (Host.reduceAdd W (constant (F := Ideal) S_ .f32 0x00000000#32) reducesTo_S64x2048_S2048_d0 h_S_)
    (broadcastInDim S2048 ![] bcast_S_S2048 (constant (F := Ideal) S_ .f32 0x42800000#32))

/-- The biases averaged: their sum divided by 64. -/
def biasMean (b : FVec Ideal S64 .f32) : FVec Ideal S_ .f32 :=
  Host.divf (Host.reduceAdd b (constant (F := Ideal) S_ .f32 0x00000000#32) reducesTo_S64_S_d0 h_S_)
    (constant (F := Ideal) S_ .f32 0x42800000#32)

/-- The first region finds the adjacency matrix as launched. -/
theorem entry0_adjacency (c : Dev nD) :
    (V1 m ρ c main_arg1 : FVec Ideal S2048x2048 .f32) = m ((c : Thread nD τ).loc main_arg1) := by
  show StableHlo.after hostOps0 (W0 m ρ c) (Proc.devRef .tc main_arg1) = _
  after_results

/-- The first region finds the averaged weights laid out as one row. -/
theorem entry0_weights (c : Dev nD) :
    (V1 m ρ c main_v3 : FVec Ideal S1x2048 .f32)
      = shapeCast S1x2048 (unitMean (m ((c : Thread nD τ).loc main_arg2))) shapeCasts_S2048_S1x2048 := by
  show StableHlo.after hostOps0 (W0 m ρ c) (Proc.devRef .tc main_v3) = _
  after_results
  rfl

/-- At the first region's entry the 1 × 1 bias buffer holds the averaged bias. -/
theorem entry0_bias (c : Dev nD) :
    (W1 m ρ c (Proc.devRef .tc main_v6) : FVec Ideal S1x1 .f32)
      = shapeCast S1x1 (biasMean (m ((c : Thread nD τ).loc main_arg3))) shapeCasts_S_S1x1 := by
  show StableHlo.after hostOps0 (W0 m ρ c) (Proc.devRef .tc main_v6) = _
  after_results
  rfl

/-- At the first region's entry the input is as launched. -/
theorem entry0_input (c : Dev nD) :
    (W1 m ρ c (Proc.devRef .tc main_arg0) : FVec Ideal S16x512x2048 .f32) = m ((c : Thread nD τ).loc main_arg0) := by
  show StableHlo.after hostOps0 (W0 m ρ c) (Proc.devRef .tc main_arg0) = _
  after_results

/-- The second region finds the input with its two leading axes flattened. -/
theorem entry1_input (c : Dev nD) :
    (V3 m ρ c main_v8 : FVec Ideal S8192x2048 .f32)
      = shapeCast S8192x2048 (m ((c : Thread nD τ).loc main_arg0)) shapeCasts_S16x512x2048_S8192x2048 := by
  show StableHlo.after hostOps1 (W2 m ρ c) (Proc.devRef .tc main_v8) = _
  after_results
  rw [W2_of_ne m ρ c main_arg0 (by decide), entry0_input]
  rfl

/-- The second region finds the first region's output array as that region left it. -/
theorem entry1_matrix (c : Dev nD) :
    (V3 m ρ c main_v7 : FVec Ideal S2048x2048 .bf16) = (dat0 (V1 m ρ) c).arrAt 2 cfg0.N := by
  show StableHlo.after hostOps1 (W2 m ρ c) (Proc.devRef .tc main_v7) = _
  after_results
  exact W2_arr m ρ c 2

/-- The second region finds the averaged bias as a 1 × 1 array. -/
theorem entry1_bias (c : Dev nD) :
    (V3 m ρ c main_v6 : FVec Ideal S1x1 .f32)
      = shapeCast S1x1 (biasMean (m ((c : Thread nD τ).loc main_arg3))) shapeCasts_S_S1x1 := by
  show StableHlo.after hostOps1 (W2 m ρ c) (Proc.devRef .tc main_v6) = _
  after_results
  rw [W2_of_ne m ρ c main_v6 (by decide)]
  exact entry0_bias m ρ c

/-- The result is the second region's output array with its rows split back into 16 × 512. -/
theorem result_eq (c : Dev nD) :
    (W5 m ρ c (Proc.devRef .tc main_v10) : FVec Ideal S16x512x2048 .f32)
      = shapeCast S16x512x2048 ((dat1 (V3 m ρ) c).arrAt 3 cfg1.N) shapeCasts_S8192x2048_S16x512x2048 := by
  show StableHlo.after hostOps2 (W4 m ρ c) (Proc.devRef .tc main_v10) = _
  after_results
  rw [W4_arr m ρ c 3]
  rfl

end Cert.KernelIdeal.HostStretches

end
-- ==== Proof.NodeMix.lean ====
/-
  What both programs compute, at one entry.

  With `X` the input (16 × 512 × 2048), `A` the adjacency matrix (2048 × 2048), `w` a vector of 2048 weights and `β` a bias,
  the entry at batch `b`, step `t`, node `j` is
      Σ_k X[b, t, k] · (A[j, k] · w[k]) + β
  on the extended reals. Both programs take for `w` the unit-averaged weights and for `β` the averaged bias.
-/
import Idealize.ShloMosaic.PureOps.Ideal
import Idealize.ShloMosaic.Lib.ValueIdx

noncomputable section

open scoped BigOperators

namespace Cert.NodeMix

open Idealize.ShloMosaic Idealize.ShloMosaic.ValueIdx

/-- `Σ_k X[b, t, k] · (A[j, k] · w[k]) + β`. -/
def entry (X : FVec Ideal ⟨3, ![16, 512, 2048]⟩ .f32) (A : FVec Ideal ⟨2, ![2048, 2048]⟩ .f32) (w : FVec Ideal ⟨1, ![2048]⟩ .f32) (β : EReal)
    (b : Fin 16) (t : Fin 512) (j : Fin 2048) : EReal :=
  (∑ k : Fin 2048, X (ix3 b t k) * (A (ix2 j k) * w (ix1 k))) + β

end Cert.NodeMix

end
-- ==== Proof.KernelEntry.lean ====
/-
  The kernel program's result at one entry.

  Through the fold of the five segments: the result is the second region's output array with its 8192 rows split back
  into 16 × 512, so entry (b, t, j) is row `512·b + t`, column `j` of that array; that is the row `512·b + t` of the flattened
  input — row (b, t) of the input — against row `j` of the scaled matrix, plus the 1 × 1 bias; the scaled matrix's row `j` is
  `A[j, k]` times the one row of averaged weights under column `k`; and the one row and the 1 × 1 array are the averaged
  weights and the averaged bias laid out. Together: `Σ_k X[b, t, k] · (A[j, k] · w[k]) + β`.
-/
import proofs.«103430_j13975823581349_1_alg».proof.Proof.ScaledAdjacency
import proofs.«103430_j13975823581349_1_alg».proof.Proof.RowProducts
import proofs.«103430_j13975823581349_1_alg».proof.Proof.HostStretches
import proofs.«103430_j13975823581349_1_alg».proof.Proof.NodeMix

set_option maxRecDepth 16384

noncomputable section

open scoped BigOperators

namespace Cert.KernelIdeal.Entry

open Idealize.ShloMosaic Idealize.ShloMosaic.TcCoe Idealize.SL.Sem Idealize.ShloMosaic.ValueIdx
open Cert.KernelIdeal Cert.KernelIdeal.Gen Cert.KernelIdeal.HostStretches Cert.NodeMix

/-- Row (b, t) of the input is row `512·b + t` of the flattened input. -/
theorem flattened_apply (X : FVec Ideal S16x512x2048 .f32) (b : Fin 16) (t : Fin 512) (k : Fin 2048) (r : Fin 8192)
    (hr : r.val = b.val * 512 + t.val) :
    shapeCast S8192x2048 X shapeCasts_S16x512x2048_S8192x2048 (ix2 r k) = X (ix3 b t k) :=
  shapeCast_apply X _ _ _ (by
    rw [Shape.rowMajor_val_three, Shape.rowMajor_val_two]
    show (b.val * 512 + t.val) * 2048 + k.val = r.val * 2048 + k.val
    rw [hr])

/-- Entry (b, t, j) of an array of 8192 rows split into 16 × 512 is its row `512·b + t`, column `j`. -/
theorem split_apply (Y : FVec Ideal S8192x2048 .f32) (b : Fin 16) (t : Fin 512) (j : Fin 2048) (r : Fin 8192)
    (hr : r.val = b.val * 512 + t.val) :
    shapeCast S16x512x2048 Y shapeCasts_S8192x2048_S16x512x2048 (ix3 b t j) = Y (ix2 r j) :=
  shapeCast_apply Y _ _ _ (by
    rw [Shape.rowMajor_val_three, Shape.rowMajor_val_two]
    show r.val * 2048 + j.val = (b.val * 512 + t.val) * 2048 + j.val
    rw [hr])

/-- A scalar laid out as a 1 × 1 array, read at its one entry. -/
theorem one_by_one_apply (s : FVec Ideal S_ .f32) :
    shapeCast S1x1 s shapeCasts_S_S1x1 (ix2 (0 : Fin 1) (0 : Fin 1)) = s ix0 :=
  shapeCast_apply s _ _ _ (by
    rw [Shape.rowMajor_val_two]
    exact Nat.lt_one_iff.mp ((S_.rowMajor ix0).isLt))

variable (m : (ℓ : Loc nD τ sig) → Buf (Elt Ideal) ℓ) (ρ : Dev nD → PrngReg)

/-- The kernel program's result at (b, t, j). -/
theorem result_apply (c : Dev nD) (b : Fin 16) (t : Fin 512) (j : Fin 2048) :
    (W5 m ρ c (Proc.devRef .tc main_v10) : FVec Ideal S16x512x2048 .f32) (ix3 b t j)
      = entry (m ((c : Thread nD τ).loc main_arg0)) (m ((c : Thread nD τ).loc main_arg1))
          (unitMean (m ((c : Thread nD τ).loc main_arg2))) (biasMean (m ((c : Thread nD τ).loc main_arg3)) ix0) b t j := by
  have hlt : b.val * 512 + t.val < 8192 := by have := b.isLt; have := t.isLt; omega
  rw [result_eq, RowProducts.array_eq (V3 m ρ) c, entry1_input, entry1_matrix, ScaledAdjacency.array_eq (V1 m ρ) c,
    entry0_adjacency, entry0_weights, entry1_bias]
  rw [split_apply _ b t j ⟨b.val * 512 + t.val, hlt⟩ rfl]
  unfold RowProducts.products entry
  refine congrArg₂ (· + ·) (Finset.sum_congr rfl fun k _ => ?_) (one_by_one_apply _)
  refine congrArg₂ (· * ·) ?_ ?_
  · exact flattened_apply _ b t k _ rfl
  · unfold ScaledAdjacency.scaled
    refine congrArg₂ (· * ·) ?_ ?_
    · exact congrArg _ (funext fun a => Fin.ext (by match a with | ⟨0, _⟩ => rfl | ⟨1, _⟩ => rfl))
    · exact shapeCast_a_1a_apply _ _ (0 : Fin 1) k

end Cert.KernelIdeal.Entry

end
-- ==== Proof.ReferenceEntry.lean ====
/-
  The reference at one entry.

  The reference scales the adjacency matrix by the unit-averaged weights broadcast along the rows, contracts the input's last
  axis with the scaled matrix's last axis, and adds the averaged bias broadcast everywhere. Read at (b, t, j), stage by stage,
  that is `Σ_k X[b, t, k] · (A[j, k] · w[k]) + β` with `w` the averaged weights and `β` the averaged bias.
-/
import proofs.«103430_j13975823581349_1_alg».proof.Proof.Gen.ReferenceIdeal.Read
import proofs.«103430_j13975823581349_1_alg».proof.Proof.NodeMix

noncomputable section

open scoped BigOperators

namespace Cert.ReferenceIdeal.Entry

open Idealize.ShloMosaic Idealize.ShloMosaic.ValueIdx
open Cert.ReferenceIdeal Cert.ReferenceIdeal.Read Cert.NodeMix

/-- The reference's result at (b, t, j). -/
theorem result_apply (X : FVec Ideal S16x512x2048 .f32) (A : FVec Ideal S2048x2048 .f32) (W : FVec Ideal S64x2048 .f32) (B : FVec Ideal S64 .f32)
    (b : Fin 16) (t : Fin 512) (j : Fin 2048) :
    val_main_v10 (F := Ideal) X A W B (ix3 b t j)
      = entry X A (val_main_v2 (F := Ideal) W) (val_main_v8 (F := Ideal) B ix0) b t j := by
  rw [val_main_v10_apply, val_main_v6_apply, val_main_v9_apply]
  unfold entry
  show (∑ k : Fin 2048, X (lidx_main_v6 (ix3 b t j) k) * val_main_v5 (F := Ideal) A W (ridx_main_v6 (ix3 b t j) k))
      + val_main_v8 (F := Ideal) B (idx_main_v9 (ix3 b t j)) = _
  refine congrArg₂ (· + ·) (Finset.sum_congr rfl fun k _ => ?_) (congrArg _ (eq_ix0 _))
  have e1 : lidx_main_v6 (ix3 b t j) k = ix3 b t k :=
    funext fun a => Fin.ext (by match a with | ⟨0, _⟩ => rfl | ⟨1, _⟩ => rfl | ⟨2, _⟩ => rfl)
  have e2 : ridx_main_v6 (ix3 b t j) k = ix2 j k :=
    funext fun a => Fin.ext (by match a with | ⟨0, _⟩ => rfl | ⟨1, _⟩ => rfl)
  have e3 : idx_main_v3 (idx_main_v4 (ix2 j k)) = ix1 k :=
    funext fun a => Fin.ext (by match a with | ⟨0, _⟩ => rfl)
  rw [e1, e2, val_main_v5_apply, val_main_v4_apply, val_main_v3_apply, e3]
  rfl

end Cert.ReferenceIdeal.Entry

end
-- ==== Proof.lean ====
/-
  The kernel program computes, for an input `X` (16 × 512 × 2048), an adjacency matrix `A` (2048 × 2048), unit weights `W`
  (64 × 2048) and unit biases `B` (64), the array
      out[b, t, j] = Σ_k X[b, t, k] · (A[j, k] · w[k]) + β,     w[k] = (Σ_i W[i, k]) / 64,   β = (Σ_i B[i]) / 64,
  in two regions — the first scales the adjacency matrix's columns by `w`, the second multiplies the flattened input's rows
  against the scaled matrix's rows and adds `β` — between host operations that average, lay out, flatten and split back.
  The reference computes the same array by one contraction over the input's last axis. On the extended reals the two are
  the same function of the arguments, entry by entry: no law beyond reading each layout operation at an index is needed, and
  the finiteness of the inputs is not used.

  The three frames: the kernel program's two are the generated frames; the reference's is its generated run with the result
  dropped. The idealization rewrote nothing, so it is preserved trivially.
-/
import proofs.«103430_j13975823581349_1_alg».proof.Defs
import proofs.«103430_j13975823581349_1_alg».proof.Proof.Gen.Kernel
import proofs.«103430_j13975823581349_1_alg».proof.Proof.Gen.Kernel.Skeleton
import proofs.«103430_j13975823581349_1_alg».proof.Proof.Gen.Kernel.Launch
import proofs.«103430_j13975823581349_1_alg».proof.Proof.Gen.Kernel.Points
import proofs.«103430_j13975823581349_1_alg».proof.Proof.Gen.Kernel.Frame
import proofs.«103430_j13975823581349_1_alg».proof.Proof.Gen.KernelIdeal
import proofs.«103430_j13975823581349_1_alg».proof.Proof.Gen.KernelIdeal.Skeleton
import proofs.«103430_j13975823581349_1_alg».proof.Proof.Gen.KernelIdeal.Launch
import proofs.«103430_j13975823581349_1_alg».proof.Proof.Gen.KernelIdeal.Points
import proofs.«103430_j13975823581349_1_alg».proof.Proof.Gen.KernelIdeal.Frame
import proofs.«103430_j13975823581349_1_alg».proof.Proof.Gen.ReferenceIdeal
import proofs.«103430_j13975823581349_1_alg».proof.Proof.Gen.ReferenceIdeal.Run
import proofs.«103430_j13975823581349_1_alg».proof.Proof.Gen.ReferenceIdeal.Read
import proofs.«103430_j13975823581349_1_alg».proof.Proof.Gen.Pre_finite_inputs
import proofs.«103430_j13975823581349_1_alg».proof.Proof.NamedRun
import proofs.«103430_j13975823581349_1_alg».proof.Proof.KernelEntry
import proofs.«103430_j13975823581349_1_alg».proof.Proof.ReferenceEntry
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' averages are one term: the same sum over the unit axis divided by the same 64. -/
theorem unitMean_eq (W : FVec Ideal Cert.KernelIdeal.S64x2048 .f32) :
    Cert.KernelIdeal.HostStretches.unitMean W = Cert.ReferenceIdeal.Read.val_main_v2 (F := Ideal) W := rfl

theorem biasMean_eq (B : FVec Ideal Cert.KernelIdeal.S64 .f32) :
    Cert.KernelIdeal.HostStretches.biasMean B = Cert.ReferenceIdeal.Read.val_main_v8 (F := Ideal) B := rfl

/-- The kernel program's result is the reference's function of the argument arrays: entry by entry both are
    `Σ_k X[b, t, k] · (A[j, k] · w[k]) + β`. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W5 m ρ c (Proc.devRef .tc Cert.KernelIdeal.main_v10) : FVec Ideal Cert.KernelIdeal.S16x512x2048 .f32)
      = Cert.ReferenceIdeal.Read.val_main_v10 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨b, t, j, rfl⟩ : ∃ (b : Fin 16) (t : Fin 512) (j : Fin 2048), i = ix3 b t j := ⟨i 0, i 1, i 2, eq_ix3 i⟩
  rw [Cert.KernelIdeal.Entry.result_apply m ρ c b t j, Cert.ReferenceIdeal.Entry.result_apply, unitMean_eq, biasMean_eq]

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the kernel program's arguments in the result, the arguments kept. -/
theorem algebraic : Cert.algebraic_KernelIdeal_ReferenceIdeal := by
  intro m ρ m' ρ' _ hagree
  refine ⟨fun c => Cert.ReferenceIdeal.Read.val_main_v10 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v10_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
